-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x256 : Shape := ⟨2, ![5000, 256]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 82
  | .vmem => 34
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .f32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000x1, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S800000x1, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S50000x128, .f32⟩
  | .hbm, ⟨57, _⟩ => ⟨S800000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S800000, .i32⟩
  | .hbm, ⟨64, _⟩ => ⟨S800000, .i1⟩
  | .hbm, ⟨65, _⟩ => ⟨S_, .i32⟩
  | .hbm, ⟨66, _⟩ => ⟨S800000, .i32⟩
  | .hbm, ⟨67, _⟩ => ⟨S800000, .i32⟩
  | .hbm, ⟨68, _⟩ => ⟨S800000, .i32⟩
  | .hbm, ⟨69, _⟩ => ⟨S800000x1, .i32⟩
  | .hbm, ⟨70, _⟩ => ⟨S800000x128, .f32⟩
  | .hbm, ⟨71, _⟩ => ⟨S800000x1, .f32⟩
  | .hbm, ⟨72, _⟩ => ⟨S800000x128, .f32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S1x1, .f32⟩
  | .hbm, ⟨81, _⟩ => ⟨S50000x1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x1, .f32⟩
  | .local _ .vmem, ⟨31, _⟩ => ⟨S1x1, .f32⟩
  | .local _ .vmem, ⟨32, _⟩ => ⟨S5000x1, .f32⟩
  | .local _ .vmem, ⟨33, _⟩ => ⟨S5000x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_7 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  shapeCasts_S50000_S50000x1 : S50000.ShapeCasts S50000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x128_S5000x128 : S5000x128.ShapeCasts S5000x128
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v57) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v60) S5000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x800000 : Shape := ⟨2, ![1, 800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 123
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x128, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S800000x1, .f32⟩
  | .hbm, ⟨52, _⟩ => ⟨S800000x128, .f32⟩
  | .hbm, ⟨53, _⟩ => ⟨S800000x128, .f32⟩
  | .hbm, ⟨54, _⟩ => ⟨S_, .f32⟩
  | .hbm, ⟨55, _⟩ => ⟨S50000x128, .f32⟩
  | .hbm, ⟨56, _⟩ => ⟨S800000x1, .i32⟩
  | .hbm, ⟨57, _⟩ => ⟨S50000x128, .f32⟩
  | .hbm, ⟨58, _⟩ => ⟨S50000, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000, .f32⟩
  | .hbm, ⟨75, _⟩ => ⟨S_, .i32⟩
  | .hbm, ⟨76, _⟩ => ⟨S800000, .i32⟩
  | .hbm, ⟨77, _⟩ => ⟨S800000, .i1⟩
  | .hbm, ⟨78, _⟩ => ⟨S_, .i32⟩
  | .hbm, ⟨79, _⟩ => ⟨S800000, .i32⟩
  | .hbm, ⟨80, _⟩ => ⟨S800000, .i32⟩
  | .hbm, ⟨81, _⟩ => ⟨S800000, .i32⟩
  | .hbm, ⟨82, _⟩ => ⟨S800000x1, .i32⟩
  | .hbm, ⟨83, _⟩ => ⟨S800000, .f32⟩
  | .hbm, ⟨84, _⟩ => ⟨S800000, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000, .f32⟩
  | .hbm, ⟨94, _⟩ => ⟨S800000, .f32⟩
  | .hbm, ⟨95, _⟩ => ⟨S_, .i32⟩
  | .hbm, ⟨96, _⟩ => ⟨S800000, .i32⟩
  | .hbm, ⟨97, _⟩ => ⟨S800000, .i1⟩
  | .hbm, ⟨98, _⟩ => ⟨S_, .i32⟩
  | .hbm, ⟨99, _⟩ => ⟨S800000, .i32⟩
  | .hbm, ⟨100, _⟩ => ⟨S800000, .i32⟩
  | .hbm, ⟨101, _⟩ => ⟨S800000, .i32⟩
  | .hbm, ⟨102, _⟩ => ⟨S800000x1, .i32⟩
  | .hbm, ⟨103, _⟩ => ⟨S800000x128, .f32⟩
  | .hbm, ⟨104, _⟩ => ⟨S800000x1, .f32⟩
  | .hbm, ⟨105, _⟩ => ⟨S800000x128, .f32⟩
  | .hbm, ⟨106, _⟩ => ⟨S800000x128, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S50000, .f32⟩
  | .hbm, ⟨112, _⟩ => ⟨S50000x1, .f32⟩
  | .hbm, ⟨113, _⟩ => ⟨S50000x128, .f32⟩
  | .hbm, ⟨114, _⟩ => ⟨S50000x128, .f32⟩
  | .hbm, ⟨115, _⟩ => ⟨S50000x128, .f32⟩
  | .hbm, ⟨116, _⟩ => ⟨S1x128, .f32⟩
  | .hbm, ⟨117, _⟩ => ⟨S50000x128, .f32⟩
  | .hbm, ⟨118, _⟩ => ⟨S50000x128, .f32⟩
  | .hbm, ⟨119, _⟩ => ⟨S50000x1, .f32⟩
  | .hbm, ⟨120, _⟩ => ⟨S1x1, .f32⟩
  | .hbm, ⟨121, _⟩ => ⟨S50000x1, .f32⟩
  | .hbm, ⟨122, _⟩ => ⟨S50000x1, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_c_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_7 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_9 : Ref sig .tc := ⟨.hbm, 75, rfl⟩
abbrev main_v55 : Ref sig .tc := ⟨.hbm, 76, rfl⟩
abbrev main_v56 : Ref sig .tc := ⟨.hbm, 77, rfl⟩
abbrev main_c_10 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_11 : Ref sig .tc := ⟨.hbm, 85, rfl⟩
abbrev main_v63 : Ref sig .tc := ⟨.hbm, 86, rfl⟩
abbrev main_v64 : Ref sig .tc := ⟨.hbm, 87, rfl⟩
abbrev main_c_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_13 : Ref sig .tc := ⟨.hbm, 95, rfl⟩
abbrev main_v71 : Ref sig .tc := ⟨.hbm, 96, rfl⟩
abbrev main_v72 : Ref sig .tc := ⟨.hbm, 97, rfl⟩
abbrev main_c_14 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x256_S256x128_S50000x128_1_0_0_1_n_n_wf : DotDims.WF S50000x256 S256x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelRun.lean ====
/-
  The idealized kernel program's run with its RESULT array named.  The program is five grid regions among stretches of
  host operations; the buffer contents at each boundary are the fold `Gen.W0 … Gen.W9` (a host stretch applies its
  operations, a region replaces its arrays by what its write-backs leave).  Every weakly fair execution terminates, nothing
  faulting, with the result array at the last boundary's contents `Gen.W9` and the nine argument arrays as launched.
  The segments, the thread states and the launch are the frame's own; only the final read-out also reads the result.
-/
import proofs.«116328_j53171695124560_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result array ends at the last boundary's contents, the arguments unchanged. -/
theorem run_result : θ_run defs (onTc (τ := τ) (main (F := F))) ⟨m, fun _ => 0, ρ⟩ (fun r => ∀ c : Dev nD,
      r.2.mem ((c.tc : Thread nD τ).loc main_v60) = W9 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v60 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.RunValue

end
-- ==== Proof.GcnSpec.lean ====
/-
  The three dense pieces of a two-layer graph convolution with a linear read-out, each as ONE function of whole
  arrays over the extended reals, index by index.  Rows are the 50000 nodes; features are 256, then 128, then 1.

  * `proj256`, `proj128` : a node's features times a weight matrix, entry (r, c) the sum over k of x(r,k) · w(k,c).
  * `combine`            : the layer's output, entry (r, c) = agg(r,c) + h(r,c) · (d(r) · d(r)) + b(c), where d is the
                            inverse square-root degree held as a 50000×1 column and b the bias held as a 1×128 row.
  * `readout`            : the classifier, entry (r, c) = (sum over k of h(r,k) · w(k,c)) + b, with b a 1×1 array.

  Nothing here mentions a program: both sides of the certificate are stated against these functions.
-/
import Idealize.ShloMosaic.PureOps.Ideal
import Idealize.ShloMosaic.Lib.ValueIdx

noncomputable section

namespace Cert.GcnSpec

open Idealize.ShloMosaic Idealize.ShloMosaic.ValueIdx

/-- Entry (r, c) of x · w for 256 input features. -/
def proj256At (x : FVec Ideal ⟨2, ![50000, 256]⟩ .f32) (w : FVec Ideal ⟨2, ![256, 128]⟩ .f32)
    (r : Fin 50000) (c : Fin 128) : EReal :=
  ∑ k : Fin 256, x (ix2 r k) * w (ix2 k c)

/-- x · w for 256 input features, as a whole array. -/
def proj256 (x : FVec Ideal ⟨2, ![50000, 256]⟩ .f32) (w : FVec Ideal ⟨2, ![256, 128]⟩ .f32) :
    FVec Ideal ⟨2, ![50000, 128]⟩ .f32 :=
  fun i => proj256At x w (i 0) (i 1)

theorem proj256_apply (x : FVec Ideal ⟨2, ![50000, 256]⟩ .f32) (w : FVec Ideal ⟨2, ![256, 128]⟩ .f32)
    (r : Fin 50000) (c : Fin 128) :
    proj256 x w (ix2 r c) = ∑ k : Fin 256, x (ix2 r k) * w (ix2 k c) := rfl

/-- Entry (r, c) of x · w for 128 input features. -/
def proj128At (x : FVec Ideal ⟨2, ![50000, 128]⟩ .f32) (w : FVec Ideal ⟨2, ![128, 128]⟩ .f32)
    (r : Fin 50000) (c : Fin 128) : EReal :=
  ∑ k : Fin 128, x (ix2 r k) * w (ix2 k c)

/-- x · w for 128 input features, as a whole array. -/
def proj128 (x : FVec Ideal ⟨2, ![50000, 128]⟩ .f32) (w : FVec Ideal ⟨2, ![128, 128]⟩ .f32) :
    FVec Ideal ⟨2, ![50000, 128]⟩ .f32 :=
  fun i => proj128At x w (i 0) (i 1)

theorem proj128_apply (x : FVec Ideal ⟨2, ![50000, 128]⟩ .f32) (w : FVec Ideal ⟨2, ![128, 128]⟩ .f32)
    (r : Fin 50000) (c : Fin 128) :
    proj128 x w (ix2 r c) = ∑ k : Fin 128, x (ix2 r k) * w (ix2 k c) := rfl

/-- Entry (r, c) of a layer's output: the aggregated messages, plus the node's own projected features weighted by the
    square of its inverse square-root degree, plus the bias. -/
def combineAt (agg h : FVec Ideal ⟨2, ![50000, 128]⟩ .f32) (d : FVec Ideal ⟨2, ![50000, 1]⟩ .f32)
    (b : FVec Ideal ⟨2, ![1, 128]⟩ .f32) (r : Fin 50000) (c : Fin 128) : EReal :=
  agg (ix2 r c) + h (ix2 r c) * (d (ix2 r (0 : Fin 1)) * d (ix2 r (0 : Fin 1))) + b (ix2 (0 : Fin 1) c)

/-- A layer's output as a whole array. -/
def combine (agg h : FVec Ideal ⟨2, ![50000, 128]⟩ .f32) (d : FVec Ideal ⟨2, ![50000, 1]⟩ .f32)
    (b : FVec Ideal ⟨2, ![1, 128]⟩ .f32) : FVec Ideal ⟨2, ![50000, 128]⟩ .f32 :=
  fun i => combineAt agg h d b (i 0) (i 1)

theorem combine_apply (agg h : FVec Ideal ⟨2, ![50000, 128]⟩ .f32) (d : FVec Ideal ⟨2, ![50000, 1]⟩ .f32)
    (b : FVec Ideal ⟨2, ![1, 128]⟩ .f32) (r : Fin 50000) (c : Fin 128) :
    combine agg h d b (ix2 r c)
      = agg (ix2 r c) + h (ix2 r c) * (d (ix2 r (0 : Fin 1)) * d (ix2 r (0 : Fin 1))) + b (ix2 (0 : Fin 1) c) := rfl

/-- Entry (r, c) of the classifier: the node's features against the one weight column, plus the scalar bias. -/
def readoutAt (h : FVec Ideal ⟨2, ![50000, 128]⟩ .f32) (w : FVec Ideal ⟨2, ![128, 1]⟩ .f32)
    (b : FVec Ideal ⟨2, ![1, 1]⟩ .f32) (r : Fin 50000) (c : Fin 1) : EReal :=
  (∑ k : Fin 128, h (ix2 r k) * w (ix2 k c)) + b (ix2 (0 : Fin 1) (0 : Fin 1))

/-- The classifier as a whole array. -/
def readout (h : FVec Ideal ⟨2, ![50000, 128]⟩ .f32) (w : FVec Ideal ⟨2, ![128, 1]⟩ .f32)
    (b : FVec Ideal ⟨2, ![1, 1]⟩ .f32) : FVec Ideal ⟨2, ![50000, 1]⟩ .f32 :=
  fun i => readoutAt h w b (i 0) (i 1)

theorem readout_apply (h : FVec Ideal ⟨2, ![50000, 128]⟩ .f32) (w : FVec Ideal ⟨2, ![128, 1]⟩ .f32)
    (b : FVec Ideal ⟨2, ![1, 1]⟩ .f32) (r : Fin 50000) (c : Fin 1) :
    readout h w b (ix2 r c)
      = (∑ k : Fin 128, h (ix2 r k) * w (ix2 k c)) + b (ix2 (0 : Fin 1) (0 : Fin 1)) := rfl

end Cert.GcnSpec

end
-- ==== Proof.Region0.lean ====
/-
  Region 0: the first dense projection.  Each of the ten grid points takes a block of 5000 node rows of x and the whole
  256×128 weight matrix and stores the block's product (the casts to a narrower float format are the identity over the
  extended reals; the product accumulates into zero, so entry (p, q) is the sum over k of x(p,k) · w(k,q)).  The ten
  row blocks tile the 50000 rows, so after the region the output array is x · W₁ of the arrays the region found.
-/
import proofs.«116328_j53171695124560_1_alg».proof.Proof.Gen.KernelIdeal.Frame
import proofs.«116328_j53171695124560_1_alg».proof.Proof.GcnSpec
import Idealize.ShloMosaic.Lib.Pipeline.Value
import Idealize.ShloMosaic.Lib.ValueIdx
import Idealize.ShloMosaic.PureOps.Ideal.Laws
noncomputable section
namespace Cert.KernelIdeal.Region0
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-- The zero offsets of a whole-block access, spelt as a constant function. -/
theorem hz : (![0, 0] : Fin 2 → Nat) = fun _ => 0 := funext fun a => by fin_cases a <;> rfl

/-- On the row axis the left operand's index is the output's row. -/
theorem lhs_0 (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- On the contracted axis the left operand's index is the contraction position. -/
theorem lhs_1 (j : S5000x128.Idx) (q : dot_S5000x256_S256x128_S5000x128_1_0_0_1_n_n.contr.Idx) : (dot_S5000x256_S256x128_S5000x128_1_0_0_1_n_n.lhsIdx j q 1).val = (q ⟨0, by decide⟩).val :=
  dot_S5000x256_S256x128_S5000x128_1_0_0_1_n_n.lhsIdx_val_of_single rfl j q
/-- On the contracted axis the right operand's index is the contraction position. -/
theorem rhs_0 (j : S5000x128.Idx) (q : dot_S5000x256_S256x128_S5000x128_1_0_0_1_n_n.contr.Idx) : (dot_S5000x256_S256x128_S5000x128_1_0_0_1_n_n.rhsIdx j q 0).val = (q ⟨0, by decide⟩).val :=
  dot_S5000x256_S256x128_S5000x128_1_0_0_1_n_n.rhsIdx_val_of_single rfl j q
/-- On the column axis the right operand's index is the output's column. -/
theorem rhs_1 (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The left operand's index for output index `j` and contraction position `k`: row of `j`, column `k`. -/
abbrev lidx (j : S5000x128.Idx) (k : Fin 256) : S5000x256.Idx := fun a => match a with
  | ⟨0, _⟩ => ⟨(j 0).val, (j 0).isLt⟩
  | ⟨1, _⟩ => ⟨k.val, k.isLt⟩

/-- The right operand's index: row `k`, column of `j`. -/
abbrev ridx (j : S5000x128.Idx) (k : Fin 256) : S256x128.Idx := fun a => match a with
  | ⟨0, _⟩ => ⟨k.val, k.isLt⟩
  | ⟨1, _⟩ => ⟨(j 1).val, (j 1).isLt⟩

/-- The block's entry at `j` is the sum over the 256 features of the row of the left block times the column of the
    right block: the two casts to a narrower float are the identity over the extended reals, and the accumulator is zero. -/
theorem pay_apply (x : Vec Ideal S5000x256 .f32) (w : Vec Ideal S256x128 .f32) (j : S5000x128.Idx) :
    k0_pay1 x w j = ∑ k : Fin 256, x (lidx j k) * w (ridx j k) := by
  unfold k0_pay1
  refine (Ideal.matmul_constant_zero_apply dot_S5000x256_S256x128_S5000x128_1_0_0_1_n_n none _ _ j).trans ?_
  rw [← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx j ((contrEquiv1 dot_S5000x256_S256x128_S5000x128_1_0_0_1_n_n 256 rfl rfl).symm k) = lidx j k := funext fun a => Fin.ext (by
    match a with
    | ⟨0, _⟩ => exact lhs_0 _ _
    | ⟨1, _⟩ => exact (lhs_1 _ _).trans hk)
  have er : dot_S5000x256_S256x128_S5000x128_1_0_0_1_n_n.rhsIdx j ((contrEquiv1 dot_S5000x256_S256x128_S5000x128_1_0_0_1_n_n 256 rfl rfl).symm k) = ridx j k := funext fun a => Fin.ext (by
    match a with
    | ⟨0, _⟩ => exact (rhs_0 _ _).trans hk
    | ⟨1, _⟩ => exact rhs_1 _ _)
  rw [el, er]
  rfl

/-- The block index maps over the ten grid points: the feature block moves with the output block along the rows and
    sits at column block zero; the weight block never moves; the output block at point `t` is row block `t`. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- At any grid point `t` and any position `j` inside the block: the body's result over the two input blocks, read off
    whole arrays `X` (features) and `W` (weights), is the product `X · W` at the array index under `j`. -/
theorem block_eq (X : FVec Ideal S50000x256 .f32) (W : FVec Ideal S256x128 .f32) (t : Fin cfg0.N) (j : S5000x128.Idx) :
    k0_pay1 (((cfg0.win 0).blk t).view.read (Elt Ideal) X) (((cfg0.win 1).blk t).view.read (Elt Ideal) W) j
      = Cert.GcnSpec.proj256 X W (((cfg0.win 2).blk t).view.emb j) := by
  obtain ⟨e0, e1, e2, e3, e4, e5⟩ := idx_facts t
  refine (pay_apply _ _ j).trans ?_
  show _ = ∑ k : Fin 256, X (ix2 ((((cfg0.win 2).blk t).view.emb j) 0) k) * W (ix2 k ((((cfg0.win 2).blk t).view.emb j) 1))
  refine Finset.sum_congr rfl fun k _ => ?_
  have h0 : ((cfg0.win 0).blk t).view.emb (lidx j k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (ridx j k) = ix2 k ((((cfg0.win 2).blk t).view.emb j) 1) := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  show X (((cfg0.win 0).blk t).view.emb (lidx j k)) * W (((cfg0.win 1).blk t).view.emb (ridx j k)) = _
  rw [h0, h1]
  rfl

/-- WHAT POINT `t` WRITES BACK is block `t` of the product of the whole feature array with the weight matrix. -/
theorem flushed_eq (c : Dev nD) (t : Fin cfg0.N) :
    (dat0 (F := Ideal) V c).flushed 2 t = ((cfg0.win 2).blk t).view.read (Elt Ideal) (Cert.GcnSpec.proj256 (V c main_arg0) (V c main_arg3)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x128) hz]
  funext j
  exact block_eq (V c main_arg0) (V c main_arg3) t j

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Every index of the output array is in some point's block: row `r` is in the block of point `r / 5000`. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 5000 < grid0.N := by rw [N_0]; omega
  obtain ⟨-, -, -, -, e4, e5⟩ := idx_facts ⟨(i 0).val / 5000, hN⟩
  have e4' : win0_2.index ⟨(i 0).val / 5000, hN⟩ (0 : Fin 2) = (i 0).val / 5000 := e4
  refine ⟨⟨(i 0).val / 5000, hN⟩, flush0_2 _, ?_⟩
  rw [mem_blk]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    omega
  | ⟨1, _⟩ =>
    show win0_2.index ⟨(i 0).val / 5000, hN⟩ (1 : Fin 2) * 128 ≤ (i 1).val ∧ (i 1).val < win0_2.index ⟨(i 0).val / 5000, hN⟩ (1 : Fin 2) * 128 + 128
    omega

/-- THE ARRAY the first projection leaves: the whole feature array times the weight matrix. -/
theorem region0_value (c : Dev nD) :
    (dat0 (F := Ideal) V c).arrAt 2 cfg0.N = Cert.GcnSpec.proj256 (V c main_arg0) (V c main_arg3) :=
  (dat0 (F := Ideal) V c).arrAt_eq_of_cover 2 (Cert.GcnSpec.proj256 (V c main_arg0) (V c main_arg3)) (fun t _ => flushed_eq V c t) cover

end Cert.KernelIdeal.Region0
end
-- ==== Proof.Region1.lean ====
/-
  Region 1: the first layer's combination.  Each of the ten grid points takes blocks of 5000 rows of the aggregated
  messages, of the projected features and of the inverse square-root degree column, and the whole bias row, and stores
  agg + h · (d · d) + b entry by entry (the column is copied along the features, the row down the rows).  The ten row
  blocks tile the 50000 rows, so after the region the output array is that combination of the arrays the region found.
-/
import proofs.«116328_j53171695124560_1_alg».proof.Proof.Gen.KernelIdeal.Frame
import proofs.«116328_j53171695124560_1_alg».proof.Proof.GcnSpec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Region1
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- A column block [a, 1] broadcast along b features reads, at (p, c), the column's entry at row p. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row p, feature q of its block: agg + h · (d · d) + b. -/
theorem stored_apply (d : FVec Ideal S5000x1 .f32) (g h : FVec Ideal S5000x128 .f32) (b : FVec Ideal S1x128 .f32)
    (p : Fin 5000) (q : Fin 128) :
    k1_pay1 d g h b (ix2 p q)
      = g (ix2 p q) + h (ix2 p q) * (d (ix2 p (0 : Fin 1)) * d (ix2 p (0 : Fin 1))) + b (ix2 (0 : Fin 1) q) := by
  unfold k1_pay1
  simp only [shapeCast_self]
  rw [addf_apply, addf_apply, mulf_apply, broadcastTo_1b_ab_apply, broadcast_column_apply, mulf_apply]

/-- The stored value at a block index y is the layer's output at an array index i, once each block the body loads
    reads its array where i says: the two feature blocks at i itself, the degree column at i's row, the bias at
    i's feature. -/
theorem stored_eq_combine (A H : FVec Ideal S50000x128 .f32) (D : FVec Ideal S50000x1 .f32) (B : FVec Ideal S1x128 .f32)
    (xa xh : FVec Ideal S5000x128 .f32) (xd : FVec Ideal S5000x1 .f32) (xb : FVec Ideal S1x128 .f32)
    (y : S5000x128.Idx) (i : S50000x128.Idx)
    (ha : xa y = A i) (hh : xh y = H i)
    (hd : xd (ix2 (⟨(y 0).val, idx2_lt0 y⟩ : Fin 5000) (0 : Fin 1)) = D (ix2 (⟨(i 0).val, idx2_lt0 i⟩ : Fin 50000) (0 : Fin 1)))
    (hb : xb (ix2 (0 : Fin 1) (⟨(y 1).val, idx2_lt1 y⟩ : Fin 128)) = B (ix2 (0 : Fin 1) (⟨(i 1).val, idx2_lt1 i⟩ : Fin 128))) :
    k1_pay1 xd xa xh xb y = Cert.GcnSpec.combine A H D B i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hd' : xd (ix2 p (0 : Fin 1)) = D (ix2 r (0 : Fin 1)) := hd
  have hb' : xb (ix2 (0 : Fin 1) q) = B (ix2 (0 : Fin 1) s) := hb
  rw [stored_apply, Cert.GcnSpec.combine_apply, ha, hh, hd', hb']

/-- The windows' index maps over the ten grid points: the two feature windows and the degree column move
    with the output window along the rows and sit at block 0 along the features; the bias window stays at block 0;
    the output window's row block is the point's own number. -/
theorem index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the layer's output computed from the arrays as the region finds them. -/
theorem flushed_eq (c : Dev nD) (t : Fin cfg1.N) :
    (dat1 (F := Ideal) V c).flushed 4 t = ((cfg1.win 4).blk t).view.read (Elt Ideal)
      (Cert.GcnSpec.combine (V c main_v40) (V c main_v27) (V c main_v26) (V c main_v41)) := by
  show (cfg1.win 4).cut (grid1.coords t) ((dat1 (F := Ideal) V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := index_facts t
  have hN : cfg1.N = 10 := N_1
  have ht : t.val < 10 := hN ▸ t.isLt
  funext j
  have hj0 : (j 0).val < 5000 := (j 0).isLt
  have hj1 : (j 1).val < 128 := (j 1).isLt
  refine stored_eq_combine (V c main_v40) (V c main_v27) (V c main_v26) (V c main_v41)
    (iblk1 V c 0 t) (iblk1 V c 1 t) (iblk1 V c 2 t) (iblk1 V c 3 t)
    ((cfg1.win 4).xinj (grid1.coords t) j) (((cfg1.win 4).blk t).view.emb j) ?_ ?_ ?_ ?_
  · show V c main_v40 (((cfg1.win 0).blk t).view.emb ((cfg1.win 4).xinj (grid1.coords t) j)) = _
    refine congrArg (V c main_v40) ?_
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  · show V c main_v27 (((cfg1.win 1).blk t).view.emb ((cfg1.win 4).xinj (grid1.coords t) j)) = _
    refine congrArg (V c main_v27) ?_
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  · show V c main_v26 (((cfg1.win 2).blk t).view.emb (ix2 (⟨(j 0).val, hj0⟩ : Fin 5000) (0 : Fin 1))) = _
    refine congrArg (V c main_v26) ?_
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  · show V c main_v41 (((cfg1.win 3).blk t).view.emb (ix2 (0 : Fin 1) (⟨(j 1).val, hj1⟩ : Fin 128))) = _
    refine congrArg (V c main_v41) ?_
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega

/-- An index of the output array is in point t's block iff each coordinate is in the block's range on its axis. -/
theorem mem_block (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v42).slice (win1_4.rect t)).set ↔ _
  rw [View.set_slice_whole, Rect.mem_set_unit]
  exact Iff.rfl

/-- Every index of the output array is in some point's block: row r is in the block of point r / 5000. -/
theorem covered (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  have hq : (i 0).val / 5000 < cfg1.N := by rw [hN]; omega
  obtain ⟨-, -, -, -, -, -, -, -, e40, e41⟩ := index_facts ⟨(i 0).val / 5000, hq⟩
  have e40' : win1_4.index ⟨(i 0).val / 5000, hq⟩ (0 : Fin 2) = (i 0).val / 5000 := e40
  refine ⟨⟨(i 0).val / 5000, hq⟩, flush1_4 _, ?_⟩
  rw [mem_block]
  intro a
  match a with
  | ⟨0, _⟩ =>
    show win1_4.index ⟨(i 0).val / 5000, hq⟩ (0 : Fin 2) * 5000 ≤ (i 0).val
      ∧ (i 0).val < win1_4.index ⟨(i 0).val / 5000, hq⟩ (0 : Fin 2) * 5000 + 5000
    rw [e40']; omega
  | ⟨1, _⟩ =>
    show win1_4.index ⟨(i 0).val / 5000, hq⟩ (1 : Fin 2) * 128 ≤ (i 1).val
      ∧ (i 1).val < win1_4.index ⟨(i 0).val / 5000, hq⟩ (1 : Fin 2) * 128 + 128
    rw [e41]; omega

/-- After the region the output array holds the layer's output: the aggregated messages, plus the node's own projected
    features weighted by the square of its inverse square-root degree, plus the bias. -/
theorem region1_value (c : Dev nD) :
    (dat1 (F := Ideal) V c).arrAt 4 cfg1.N = Cert.GcnSpec.combine (V c main_v40) (V c main_v27) (V c main_v26) (V c main_v41) :=
  (dat1 (F := Ideal) V c).arrAt_eq_of_cover 4
    (Cert.GcnSpec.combine (V c main_v40) (V c main_v27) (V c main_v26) (V c main_v41))
    (fun t _ => flushed_eq V c t) covered

end Cert.KernelIdeal.Region1
end
-- ==== Proof.Region2.lean ====
/-
  Region 2: the second dense projection.  Each of the ten grid points takes a block of 5000 node rows of the first
  layer's output and the whole 128×128 weight matrix and stores the block's product, entry (p, q) the sum over k of
  o(p,k) · w(k,q).  The ten row blocks tile the 50000 rows, so after the region the output array is o₁ · W₂ of the
  arrays the region found.
-/
import proofs.«116328_j53171695124560_1_alg».proof.Proof.Gen.KernelIdeal.Frame
import proofs.«116328_j53171695124560_1_alg».proof.Proof.GcnSpec
import Idealize.ShloMosaic.Lib.Pipeline.Value
import Idealize.ShloMosaic.Lib.ValueIdx
import Idealize.ShloMosaic.PureOps.Ideal.Laws
noncomputable section
namespace Cert.KernelIdeal.Region2
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-- The zero offsets of a whole-block access, spelt as a constant function. -/
theorem hz : (![0, 0] : Fin 2 → Nat) = fun _ => 0 := funext fun a => by fin_cases a <;> rfl

/-- On the row axis the left operand's index is the output's row. -/
theorem lhs_0 (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- On the contracted axis the left operand's index is the contraction position. -/
theorem lhs_1 (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
/-- On the contracted axis the right operand's index is the contraction position. -/
theorem rhs_0 (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
/-- On the column axis the right operand's index is the output's column. -/
theorem rhs_1 (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The left operand's index for output index `j` and contraction position `k`: row of `j`, column `k`. -/
abbrev lidx (j : S5000x128.Idx) (k : Fin 128) : S5000x128.Idx := fun a => match a with
  | ⟨0, _⟩ => ⟨(j 0).val, (j 0).isLt⟩
  | ⟨1, _⟩ => ⟨k.val, k.isLt⟩

/-- The right operand's index: row `k`, column of `j`. -/
abbrev ridx (j : S5000x128.Idx) (k : Fin 128) : S128x128.Idx := fun a => match a with
  | ⟨0, _⟩ => ⟨k.val, k.isLt⟩
  | ⟨1, _⟩ => ⟨(j 1).val, (j 1).isLt⟩

/-- The block's entry at `j` is the sum over the 128 features of the row of the left block times the column of the
    right block: the reshaping to the same shape and the two casts to a narrower float are the identity over the
    extended reals, and the accumulator is zero. -/
theorem pay_apply (x : Vec Ideal S5000x128 .f32) (w : Vec Ideal S128x128 .f32) (j : S5000x128.Idx) :
    k2_pay1 x w j = ∑ k : Fin 128, x (lidx j k) * w (ridx j k) := by
  unfold k2_pay1
  rw [shapeCast_self]
  refine (Ideal.matmul_constant_zero_apply dot_S5000x128_S128x128_S5000x128_1_0_0_1_n_n none _ _ j).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx j ((contrEquiv1 dot_S5000x128_S128x128_S5000x128_1_0_0_1_n_n 128 rfl rfl).symm k) = lidx j k := funext fun a => Fin.ext (by
    match a with
    | ⟨0, _⟩ => exact lhs_0 _ _
    | ⟨1, _⟩ => exact (lhs_1 _ _).trans hk)
  have er : dot_S5000x128_S128x128_S5000x128_1_0_0_1_n_n.rhsIdx j ((contrEquiv1 dot_S5000x128_S128x128_S5000x128_1_0_0_1_n_n 128 rfl rfl).symm k) = ridx j k := funext fun a => Fin.ext (by
    match a with
    | ⟨0, _⟩ => exact (rhs_0 _ _).trans hk
    | ⟨1, _⟩ => exact rhs_1 _ _)
  rw [el, er]
  rfl

/-- The block index maps over the ten grid points: the feature block moves with the output block along the rows and
    sits at column block zero; the weight block never moves; the output block at point `t` is row block `t`. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- At any grid point `t` and any position `j` inside the block: the body's result over the two input blocks, read off
    whole arrays `X` (features) and `W` (weights), is the product `X · W` at the array index under `j`. -/
theorem block_eq (X : FVec Ideal S50000x128 .f32) (W : FVec Ideal S128x128 .f32) (t : Fin cfg2.N) (j : S5000x128.Idx) :
    k2_pay1 (((cfg2.win 0).blk t).view.read (Elt Ideal) X) (((cfg2.win 1).blk t).view.read (Elt Ideal) W) j
      = Cert.GcnSpec.proj128 X W (((cfg2.win 2).blk t).view.emb j) := by
  obtain ⟨e0, e1, e2, e3, e4, e5⟩ := idx_facts t
  refine (pay_apply _ _ j).trans ?_
  show _ = ∑ k : Fin 128, X (ix2 ((((cfg2.win 2).blk t).view.emb j) 0) k) * W (ix2 k ((((cfg2.win 2).blk t).view.emb j) 1))
  refine Finset.sum_congr rfl fun k _ => ?_
  have h0 : ((cfg2.win 0).blk t).view.emb (lidx j k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : ((cfg2.win 1).blk t).view.emb (ridx j k) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  show X (((cfg2.win 0).blk t).view.emb (lidx j k)) * W (((cfg2.win 1).blk t).view.emb (ridx j k)) = _
  rw [h0, h1]
  rfl

/-- WHAT POINT `t` WRITES BACK is block `t` of the product of the whole feature array with the weight matrix. -/
theorem flushed_eq (c : Dev nD) (t : Fin cfg2.N) :
    (dat2 (F := Ideal) V c).flushed 2 t = ((cfg2.win 2).blk t).view.read (Elt Ideal) (Cert.GcnSpec.proj128 (V c main_v42) (V c main_arg5)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  funext j
  exact block_eq (V c main_v42) (V c main_arg5) t j

/-- An index of the array is in point `t`'s block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Every index of the output array is in some point's block: row `r` is in the block of point `r / 5000`. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : (i 0).val / 5000 < grid2.N := by rw [N_2]; omega
  obtain ⟨-, -, -, -, e4, e5⟩ := idx_facts ⟨(i 0).val / 5000, hN⟩
  have e4' : win2_2.index ⟨(i 0).val / 5000, hN⟩ (0 : Fin 2) = (i 0).val / 5000 := e4
  refine ⟨⟨(i 0).val / 5000, hN⟩, flush2_2 _, ?_⟩
  rw [mem_blk]
  intro a
  match a with
  | ⟨0, _⟩ =>
    show win2_2.index ⟨(i 0).val / 5000, hN⟩ (0 : Fin 2) * 5000 ≤ (i 0).val ∧ (i 0).val < win2_2.index ⟨(i 0).val / 5000, hN⟩ (0 : Fin 2) * 5000 + 5000
    omega
  | ⟨1, _⟩ =>
    show win2_2.index ⟨(i 0).val / 5000, hN⟩ (1 : Fin 2) * 128 ≤ (i 1).val ∧ (i 1).val < win2_2.index ⟨(i 0).val / 5000, hN⟩ (1 : Fin 2) * 128 + 128
    omega

/-- THE ARRAY the second projection leaves: the whole hidden-feature array times the weight matrix. -/
theorem region2_value (c : Dev nD) :
    (dat2 (F := Ideal) V c).arrAt 2 cfg2.N = Cert.GcnSpec.proj128 (V c main_v42) (V c main_arg5) :=
  (dat2 (F := Ideal) V c).arrAt_eq_of_cover 2 (Cert.GcnSpec.proj128 (V c main_v42) (V c main_arg5)) (fun t _ => flushed_eq V c t) cover

end Cert.KernelIdeal.Region2
end
-- ==== Proof.Region3.lean ====
/-
  Region 3: the second layer's combination, the same body as the first layer's on the second layer's arrays: blocks of
  5000 rows of the aggregated messages, of the projected features and of the inverse square-root degree column, and the
  whole bias row, combined as agg + h · (d · d) + b entry by entry.  The ten row blocks tile the 50000 rows, so after
  the region the output array is that combination of the arrays the region found.
-/
import proofs.«116328_j53171695124560_1_alg».proof.Proof.Gen.KernelIdeal.Frame
import proofs.«116328_j53171695124560_1_alg».proof.Proof.GcnSpec
import Idealize.ShloMosaic.Lib.Pipeline.Value
import Idealize.ShloMosaic.Lib.ValueIdx
import Idealize.ShloMosaic.Lib.ValueLayout
import Idealize.ShloMosaic.PureOps.Ideal.Laws
noncomputable section
namespace Cert.KernelIdeal.Region3
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-- The zero offsets of a whole-block access, as the constant function. -/
theorem zero_offsets : (![0, 0] : Fin 2 → Nat) = fun _ => 0 := funext fun a => by fin_cases a <;> rfl

/-- A column block [a, 1] broadcast along b features reads, at (p, c), the column's entry at row p. -/
theorem broadcast_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's stored value at row p, feature q of its block: agg + h · (d · d) + b. -/
theorem stored_apply (d : FVec Ideal S5000x1 .f32) (g h : FVec Ideal S5000x128 .f32) (b : FVec Ideal S1x128 .f32)
    (p : Fin 5000) (q : Fin 128) :
    k3_pay1 d g h b (ix2 p q)
      = g (ix2 p q) + h (ix2 p q) * (d (ix2 p (0 : Fin 1)) * d (ix2 p (0 : Fin 1))) + b (ix2 (0 : Fin 1) q) := by
  unfold k3_pay1
  simp only [shapeCast_self]
  rw [addf_apply, addf_apply, mulf_apply, broadcastTo_1b_ab_apply, broadcast_column_apply, mulf_apply]

/-- The stored value at a block index y is the layer's output at an array index i, once each block the body loads
    reads its array where i says: the two feature blocks at i itself, the degree column at i's row, the bias at
    i's feature. -/
theorem stored_eq_combine (A H : FVec Ideal S50000x128 .f32) (D : FVec Ideal S50000x1 .f32) (B : FVec Ideal S1x128 .f32)
    (xa xh : FVec Ideal S5000x128 .f32) (xd : FVec Ideal S5000x1 .f32) (xb : FVec Ideal S1x128 .f32)
    (y : S5000x128.Idx) (i : S50000x128.Idx)
    (ha : xa y = A i) (hh : xh y = H i)
    (hd : xd (ix2 (⟨(y 0).val, idx2_lt0 y⟩ : Fin 5000) (0 : Fin 1)) = D (ix2 (⟨(i 0).val, idx2_lt0 i⟩ : Fin 50000) (0 : Fin 1)))
    (hb : xb (ix2 (0 : Fin 1) (⟨(y 1).val, idx2_lt1 y⟩ : Fin 128)) = B (ix2 (0 : Fin 1) (⟨(i 1).val, idx2_lt1 i⟩ : Fin 128))) :
    k3_pay1 xd xa xh xb y = Cert.GcnSpec.combine A H D B i := by
  obtain ⟨p, q, rfl⟩ : ∃ (p : Fin 5000) (q : Fin 128), y = ix2 p q := ⟨y 0, y 1, eq_ix2 y⟩
  obtain ⟨r, s, rfl⟩ : ∃ (r : Fin 50000) (s : Fin 128), i = ix2 r s := ⟨i 0, i 1, eq_ix2 i⟩
  have hd' : xd (ix2 p (0 : Fin 1)) = D (ix2 r (0 : Fin 1)) := hd
  have hb' : xb (ix2 (0 : Fin 1) q) = B (ix2 (0 : Fin 1) s) := hb
  rw [stored_apply, Cert.GcnSpec.combine_apply, ha, hh, hd', hb']

/-- The windows' index maps over the ten grid points: the two feature windows and the degree column move
    with the output window along the rows and sit at block 0 along the features; the bias window stays at block 0;
    the output window's row block is the point's own number. -/
theorem index_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the layer's output computed from the arrays as the region finds them. -/
theorem flushed_eq (c : Dev nD) (t : Fin cfg3.N) :
    (dat3 (F := Ideal) V c).flushed 4 t = ((cfg3.win 4).blk t).view.read (Elt Ideal)
      (Cert.GcnSpec.combine (V c main_v56) (V c main_v43) (V c main_v26) (V c main_v57)) := by
  show (cfg3.win 4).cut (grid3.coords t) ((dat3 (F := Ideal) V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S1x128) zero_offsets]
  obtain ⟨e00, e01, e10, e11, e20, e21, e30, e31, e40, e41⟩ := index_facts t
  have hN : cfg3.N = 10 := N_3
  have ht : t.val < 10 := hN ▸ t.isLt
  funext j
  have hj0 : (j 0).val < 5000 := (j 0).isLt
  have hj1 : (j 1).val < 128 := (j 1).isLt
  refine stored_eq_combine (V c main_v56) (V c main_v43) (V c main_v26) (V c main_v57)
    (iblk3 V c 0 t) (iblk3 V c 1 t) (iblk3 V c 2 t) (iblk3 V c 3 t)
    ((cfg3.win 4).xinj (grid3.coords t) j) (((cfg3.win 4).blk t).view.emb j) ?_ ?_ ?_ ?_
  · show V c main_v56 (((cfg3.win 0).blk t).view.emb ((cfg3.win 4).xinj (grid3.coords t) j)) = _
    refine congrArg (V c main_v56) ?_
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 128 + 1 * (j 1).val = win3_4.index t (1 : Fin 2) * 128 + 1 * (j 1).val; omega
  · show V c main_v43 (((cfg3.win 1).blk t).view.emb ((cfg3.win 4).xinj (grid3.coords t) j)) = _
    refine congrArg (V c main_v43) ?_
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 128 + 1 * (j 1).val = win3_4.index t (1 : Fin 2) * 128 + 1 * (j 1).val; omega
  · show V c main_v26 (((cfg3.win 2).blk t).view.emb (ix2 (⟨(j 0).val, hj0⟩ : Fin 5000) (0 : Fin 1))) = _
    refine congrArg (V c main_v26) ?_
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  · show V c main_v57 (((cfg3.win 3).blk t).view.emb (ix2 (0 : Fin 1) (⟨(j 1).val, hj1⟩ : Fin 128))) = _
    refine congrArg (V c main_v57) ?_
    funext a; apply Fin.ext
    match a with
    | ⟨0, _⟩ => show win3_3.index t (0 : Fin 2) * 1 + 1 * 0 = 0; omega
    | ⟨1, _⟩ => show win3_3.index t (1 : Fin 2) * 128 + 1 * (j 1).val = win3_4.index t (1 : Fin 2) * 128 + 1 * (j 1).val; omega

/-- An index of the output array is in point t's block iff each coordinate is in the block's range on its axis. -/
theorem mem_block (t : Fin cfg3.N) (i : S50000x128.Idx) :
    i ∈ ((cfg3.win 4).blk t).view.set ↔ ∀ a : Fin 2, win3_4.index t a * S5000x128.size a ≤ (i a).val
      ∧ (i a).val < win3_4.index t a * S5000x128.size a + S5000x128.size a := by
  show i ∈ ((View.whole main_v58).slice (win3_4.rect t)).set ↔ _
  rw [View.set_slice_whole, Rect.mem_set_unit]
  exact Iff.rfl

/-- Every index of the output array is in some point's block: row r is in the block of point r / 5000. -/
theorem covered (i : S50000x128.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  have hN : cfg3.N = 10 := N_3
  have hq : (i 0).val / 5000 < cfg3.N := by rw [hN]; omega
  obtain ⟨-, -, -, -, -, -, -, -, e40, e41⟩ := index_facts ⟨(i 0).val / 5000, hq⟩
  have e40' : win3_4.index ⟨(i 0).val / 5000, hq⟩ (0 : Fin 2) = (i 0).val / 5000 := e40
  refine ⟨⟨(i 0).val / 5000, hq⟩, flush3_4 _, ?_⟩
  rw [mem_block]
  intro a
  match a with
  | ⟨0, _⟩ =>
    show win3_4.index ⟨(i 0).val / 5000, hq⟩ (0 : Fin 2) * 5000 ≤ (i 0).val
      ∧ (i 0).val < win3_4.index ⟨(i 0).val / 5000, hq⟩ (0 : Fin 2) * 5000 + 5000
    rw [e40']; omega
  | ⟨1, _⟩ =>
    show win3_4.index ⟨(i 0).val / 5000, hq⟩ (1 : Fin 2) * 128 ≤ (i 1).val
      ∧ (i 1).val < win3_4.index ⟨(i 0).val / 5000, hq⟩ (1 : Fin 2) * 128 + 128
    rw [e41]; omega

/-- After the region the output array holds the layer's output: the aggregated messages, plus the node's own projected
    features weighted by the square of its inverse square-root degree, plus the bias. -/
theorem region3_value (c : Dev nD) :
    (dat3 (F := Ideal) V c).arrAt 4 cfg3.N = Cert.GcnSpec.combine (V c main_v56) (V c main_v43) (V c main_v26) (V c main_v57) :=
  (dat3 (F := Ideal) V c).arrAt_eq_of_cover 4
    (Cert.GcnSpec.combine (V c main_v56) (V c main_v43) (V c main_v26) (V c main_v57))
    (fun t _ => flushed_eq V c t) covered

end Cert.KernelIdeal.Region3
end
-- ==== Proof.Region4.lean ====
import proofs.«116328_j53171695124560_1_alg».proof.Proof.Gen.KernelIdeal.Frame
import proofs.«116328_j53171695124560_1_alg».proof.Proof.GcnSpec
import Idealize.ShloMosaic.Lib.Pipeline.Value
import Idealize.ShloMosaic.Lib.ValueIdx
import Idealize.ShloMosaic.PureOps.Ideal.Laws
noncomputable section
namespace Cert.KernelIdeal.Region4
open Cert.KernelIdeal Cert.KernelIdeal.Gen Idealize.ShloMosaic Idealize.ShloMosaic.TcCoe Idealize.SL.Sem Idealize.ShloMosaic.ValueIdx
open Idealize.ShloMosaic.Pipeline (Dat)
variable (V : (c : Dev nD) → (b : Ref sig .tc) → Buf (Elt Ideal) ((c : Thread nD τ).loc b))

/-!
# The classifier region: the output array is the read-out of the node features

The region walks the 50000 nodes in ten blocks of 5000 rows.  At block `t` it reads rows
`5000·t … 5000·t + 4999` of the features `h` (128 columns), the whole weight column `w` (128×1) and the
whole bias `b` (1×1), and writes rows `5000·t … 5000·t + 4999` of the output column:

  out(r, 0) = (∑ k < 128, h(r, k) · w(k, 0)) + b(0, 0).

The conversions to the narrower float format before the product are the identity over the extended reals, and
the product accumulates into zero, so no rounding and no summation order is left in the value.  The ten row
blocks are disjoint and cover every row, so the output array as a whole is `Cert.GcnSpec.readout h w b`.

The order below: the block index of each window at a grid point; the block's value at one entry; what one
grid point writes back; every output entry lies in some written block; the whole array.
-/

/-! ## Where each window's block sits -/

/-- The two zero offsets of an access to a whole block, as the constant function. -/
theorem zero_offsets : (![0, 0] : Fin 2 → Nat) = fun _ => 0 := funext fun a => by fin_cases a <;> rfl

/-- The block indices at a grid point, checked at each of the ten points: the feature block moves down the
    rows with the output block and stays in column block 0; the weight column and the bias are always their
    one block (0, 0); the output's row block is one of 0 … 9 and its column block is 0. -/
theorem index_facts : ∀ t : Fin cfg4.N,
    win4_0.index t (0 : Fin 2) = win4_3.index t (0 : Fin 2)
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 9 ∧ win4_3.index t (1 : Fin 2) = 0 :=
  (by decide +kernel : ∀ t : Fin grid4.N, _)

/-- Each of the ten row blocks of the output is the block of some grid point. -/
theorem index_onto : ∀ q : Fin 10, ∃ t : Fin cfg4.N, win4_3.index t = ![q.val, 0] :=
  (by decide +kernel : ∀ q : Fin 10, ∃ t : Fin grid4.N, win4_3.index t = ![q.val, 0])

/-! ## The product of a 5000×128 block with a 128×1 column, entry by entry

The product contracts axis 1 of the left operand with axis 0 of the right one.  At output entry `(p, q)` and
contraction position `k` it reads the left operand at `(p, k)` and the right operand at `(k, q)`. -/

/-- The left operand is read in the output entry's row … -/
theorem lhs_row (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- … at the contraction position as its column; -/
theorem lhs_col (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- the right operand is read at the contraction position as its row … -/
theorem rhs_row (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- … in the output entry's column. -/
theorem rhs_col (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- The product accumulated into zero, at entry `(p, q)`: the sum over the 128 contraction positions of
    `a(p, k) · w(k, q)`.  The sum over the one-axis contraction index is re-indexed by its coordinate. -/
theorem matmul_column (a : FVec Ideal S5000x128 .bf16) (w : FVec Ideal S128x1 .bf16) (p : Fin 5000) (q : Fin 1) :
    matmul dot_S5000x128_S128x1_S5000x1_1_0_0_1_n_n none a w (constant (F := Ideal) S5000x1 .f32 0x00000000#32) (ix2 p q)
      = ∑ k : Fin 128, a (ix2 p k) * w (ix2 k q) := by
  refine (Ideal.matmul_constant_zero_apply dot_S5000x128_S128x1_S5000x1_1_0_0_1_n_n none a w (ix2 p q)).trans ?_
  rw [← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun a => Fin.ext (by
    match a with
    | ⟨0, _⟩ => exact (rhs_row _ _).trans hk
    | ⟨1, _⟩ => exact rhs_col _ _)
  rw [el, er]

/-- The 1×1 bias spread over the 5000×1 block reads its one entry everywhere: both of its axes have extent
    one, so both coordinates of the entry read are 0. -/
theorem broadcast_scalar (b : FVec Ideal S1x1 .f32) (j : S5000x1.Idx) :
    broadcastTo S5000x1 b broadcasts_S1x1_S5000x1 j = b (ix2 (0 : Fin 1) (0 : Fin 1)) :=
  broadcastTo_apply b broadcasts_S1x1_S5000x1 j (ix2 (0 : Fin 1) (0 : Fin 1)) (fun a => by
    match a with
    | ⟨0, _⟩ => exact (if_pos rfl).symm
    | ⟨1, _⟩ => exact (if_pos rfl).symm)

/-! ## What the body stores, at one entry -/

/-- The stored block at entry `(p, q)`, from the three blocks read: the features' row `p` against the weight
    column, plus the bias.  A reshape to the same shape and a narrowing of the float format are the identity
    over the extended reals. -/
theorem payload_apply (x0 : Vec Ideal S5000x128 .f32) (x1 : Vec Ideal S128x1 .f32) (x2 : Vec Ideal S1x1 .f32) (p : Fin 5000) (q : Fin 1) :
    k4_pay1 (F := Ideal) x0 x1 x2 (ix2 p q)
      = (∑ k : Fin 128, x0 (ix2 p k) * x1 (ix2 k q)) + x2 (ix2 (0 : Fin 1) (0 : Fin 1)) := by
  unfold k4_pay1
  simp only [shapeCast_self]
  refine (addf_apply _ _ _).trans ?_
  refine congrArg₂ (· + ·) ?_ ?_
  · exact matmul_column _ _ p q
  · exact broadcast_scalar x2 _

/-! ## The blocks read at a grid point, as entries of the whole arrays

An entry of a block sits in its array, on each axis, at block index × block extent + its own coordinate. -/

/-- Entry `(p, k)` of the feature block at point `t` is entry `(r, k)` of the features, where `r` is row `p` of
    the output's row block at `t`. -/
theorem features_block (c : Dev nD) (t : Fin cfg4.N) (p : Fin 5000) (k : Fin 128) (r : Fin 50000)
    (hr : r.val = win4_3.index t (0 : Fin 2) * 5000 + p.val) :
    (iblk4 (F := Ideal) V c 0 t : Vec Ideal S5000x128 .f32) (ix2 p k) = V c main_v58 (ix2 r k) := by
  obtain ⟨e0, e1, -⟩ := index_facts t
  show V c main_v58 (((cfg4.win 0).blk t).view.emb (ix2 p k)) = V c main_v58 (ix2 r k)
  refine congrArg (V c main_v58) (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The weight block at every point is the whole weight column. -/
theorem weight_block (c : Dev nD) (t : Fin cfg4.N) (k : Fin 128) (q : Fin 1) :
    (iblk4 (F := Ideal) V c 1 t : Vec Ideal S128x1 .f32) (ix2 k q) = V c main_arg7 (ix2 k q) := by
  obtain ⟨-, -, e2, e3, -⟩ := index_facts t
  show V c main_arg7 (((cfg4.win 1).blk t).view.emb (ix2 k q)) = V c main_arg7 (ix2 k q)
  refine congrArg (V c main_arg7) (funext fun a => Fin.ext ?_)
  match a with
  | ⟨0, _⟩ => show win4_1.index t (0 : Fin 2) * 128 + 1 * k.val = k.val; omega
  | ⟨1, _⟩ => show win4_1.index t (1 : Fin 2) * 1 + 1 * q.val = q.val; omega

/-- The bias block at every point is the whole 1×1 bias. -/
theorem bias_block (c : Dev nD) (t : Fin cfg4.N) :
    (iblk4 (F := Ideal) V c 2 t : Vec Ideal S1x1 .f32) (ix2 (0 : Fin 1) (0 : Fin 1)) = V c main_v59 (ix2 (0 : Fin 1) (0 : Fin 1)) := by
  obtain ⟨-, -, -, -, e4, e5, -⟩ := index_facts t
  show V c main_v59 (((cfg4.win 2).blk t).view.emb (ix2 (0 : Fin 1) (0 : Fin 1))) = V c main_v59 (ix2 (0 : Fin 1) (0 : Fin 1))
  refine congrArg (V c main_v59) (funext fun a => Fin.ext ?_)
  match a with
  | ⟨0, _⟩ => show win4_2.index t (0 : Fin 2) * 1 + 1 * (0 : Fin 1).val = (0 : Fin 1).val; omega
  | ⟨1, _⟩ => show win4_2.index t (1 : Fin 2) * 1 + 1 * (0 : Fin 1).val = (0 : Fin 1).val; omega

/-! ## What one grid point writes back -/

/-- If three blocks agree with whole arrays `h`, `w`, `b` where the stored entry `(p, q)` reads them — the
    features' row `p` with row `r` of `h`, the weight column with `w`, the bias with `b` — then the stored entry
    is entry `(r, q)` of the read-out of `h`, `w`, `b`. -/
theorem point_value (h : FVec Ideal ⟨2, ![50000, 128]⟩ .f32) (w : FVec Ideal ⟨2, ![128, 1]⟩ .f32) (b : FVec Ideal ⟨2, ![1, 1]⟩ .f32)
    (x0 : Vec Ideal S5000x128 .f32) (x1 : Vec Ideal S128x1 .f32) (x2 : Vec Ideal S1x1 .f32)
    (p : Fin 5000) (q : Fin 1) (r : Fin 50000)
    (h0 : ∀ k : Fin 128, x0 (ix2 p k) = h (ix2 r k))
    (h1 : ∀ k : Fin 128, x1 (ix2 k q) = w (ix2 k q))
    (h2 : x2 (ix2 (0 : Fin 1) (0 : Fin 1)) = b (ix2 (0 : Fin 1) (0 : Fin 1))) :
    k4_pay1 (F := Ideal) x0 x1 x2 (ix2 p q) = Cert.GcnSpec.readout h w b (ix2 r q) := by
  rw [payload_apply, Cert.GcnSpec.readout_apply, h2]
  exact congrArg (· + b (ix2 (0 : Fin 1) (0 : Fin 1))) (Finset.sum_congr rfl fun k _ => by rw [h0 k, h1 k])

/-- What grid point `t` writes back is block `t` of the read-out of the features, the weight column and the
    bias as the region finds them: entry `(p, q)` of the block is entry `(5000·(row block of t) + p, q)` of
    the array, and the stored value there reads the features in exactly that row. -/
theorem flushed_eq (c : Dev nD) (t : Fin cfg4.N) :
    (dat4 (F := Ideal) V c).flushed 3 t
      = ((cfg4.win 3).blk t).view.read (Elt Ideal) (Cert.GcnSpec.readout (V c main_v58) (V c main_arg7) (V c main_v59)) := by
  show (cfg4.win 3).cut (grid4.coords t) ((dat4 V c).after 3 t) = _
  rw [after4_3]
  unfold out4_3
  rw [View.canon_unit_zero zero_offsets]
  simp only [View.ld_unit_zero (S := S5000x128) zero_offsets, View.ld_unit_zero (S := S128x1) zero_offsets, View.ld_unit_zero (S := S1x1) zero_offsets]
  obtain ⟨-, -, -, -, -, -, e6, e7⟩ := index_facts t
  funext j
  have hp : (j 0).val < 5000 := (j 0).isLt
  have hq : (j 1).val < 1 := (j 1).isLt
  have hr : win4_3.index t (0 : Fin 2) * 5000 + (j 0).val < 50000 := by omega
  have hL : (cfg4.win 3).xinj (grid4.coords t) j = ix2 (⟨(j 0).val, hp⟩ : Fin 5000) (⟨(j 1).val, hq⟩ : Fin 1) :=
    funext fun a => by match a with | ⟨0, _⟩ => rfl | ⟨1, _⟩ => rfl
  have hR : ((cfg4.win 3).blk t).view.emb j = ix2 (⟨win4_3.index t (0 : Fin 2) * 5000 + (j 0).val, hr⟩ : Fin 50000) (⟨(j 1).val, hq⟩ : Fin 1) :=
    funext fun a => Fin.ext (by
      match a with
      | ⟨0, _⟩ => show win4_3.index t (0 : Fin 2) * 5000 + 1 * (j 0).val = win4_3.index t (0 : Fin 2) * 5000 + (j 0).val; omega
      | ⟨1, _⟩ => show win4_3.index t (1 : Fin 2) * 1 + 1 * (j 1).val = (j 1).val; omega)
  show k4_pay1 (F := Ideal) (iblk4 V c 0 t) (iblk4 V c 1 t) (iblk4 V c 2 t) ((cfg4.win 3).xinj (grid4.coords t) j)
    = Cert.GcnSpec.readout (V c main_v58) (V c main_arg7) (V c main_v59) (((cfg4.win 3).blk t).view.emb j)
  rw [hL, hR]
  exact point_value (V c main_v58) (V c main_arg7) (V c main_v59) (iblk4 V c 0 t) (iblk4 V c 1 t) (iblk4 V c 2 t) _ _ _
    (fun k => features_block V c t _ k _ rfl) (fun k => weight_block V c t k _) (bias_block V c t)

/-! ## The ten blocks cover the output column -/

/-- An entry of the output lies in point `t`'s block iff, on each axis, its coordinate lies in the block's
    range: from block index × block extent, for one block extent. -/
theorem mem_block (t : Fin cfg4.N) (i : S50000x1.Idx) :
    i ∈ ((cfg4.win 3).blk t).view.set ↔ ∀ a : Fin 2, win4_3.index t a * S5000x1.size a ≤ (i a).val ∧ (i a).val < win4_3.index t a * S5000x1.size a + S5000x1.size a := by
  show i ∈ ((View.whole main_v60).slice (win4_3.rect t)).set ↔ _
  rw [View.set_slice_whole, Rect.mem_set_unit]
  exact Iff.rfl

/-- Every entry `(r, 0)` of the output lies in a block that is written back: the block of the grid point whose
    row block is `r / 5000`, since `5000·(r / 5000) ≤ r < 5000·(r / 5000) + 5000`. -/
theorem covered (i : S50000x1.Idx) : ∃ t : Fin cfg4.N, (cfg4.win 3).flush t = true ∧ i ∈ ((cfg4.win 3).blk t).view.set := by
  have hi0 : (i 0).val < 50000 := (i 0).isLt
  have hi1 : (i 1).val < 1 := (i 1).isLt
  obtain ⟨t, ht⟩ := index_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_block]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 1 ≤ (i 1).val ∧ (i 1).val < win4_3.index t (1 : Fin 2) * 1 + 1; omega

/-! ## The whole array -/

/-- After the region the output array is the read-out of the features, the weight column and the bias as the
    region finds them: every grid point writes its block of that one function, and the blocks cover the array. -/
theorem region4_value (c : Dev nD) :
    (dat4 (F := Ideal) V c).arrAt 3 cfg4.N = Cert.GcnSpec.readout (V c main_v58) (V c main_arg7) (V c main_v59) :=
  (dat4 (F := Ideal) V c).arrAt_eq_of_cover 3 (Cert.GcnSpec.readout (V c main_v58) (V c main_arg7) (V c main_v59))
    (fun t _ => flushed_eq V c t) covered

end Cert.KernelIdeal.Region4

end
-- ==== Proof.Chain.lean ====
/-
  The idealized kernel program's buffers at the boundaries between its segments, one boundary read in terms of the
  one before it.

  The program alternates host stretches and grid regions; `Gen.W1 … Gen.W9` are the buffer contents after each
  segment.  A region replaces its output array by what its write-backs leave and keeps every other buffer:
    region 0 leaves h₁ = x · W₁;                    region 1 leaves o₁ = agg₁ + h₁ · d² + b₁;
    region 2 leaves h₂ = o₁ · W₂;                   region 3 leaves o₂ = agg₂ + h₂ · d² + b₂;
    region 4 leaves the result o₂ · Wc + bc,
  each stated over the buffers as the region finds them.  (The host stretches between them — the degree
  normalisation, the gathers along edges and the scatter-adds by target node — are read by applying their
  operations where the whole term is assembled.)
-/
import proofs.«116328_j53171695124560_1_alg».proof.Proof.Gen.KernelIdeal.Frame
import proofs.«116328_j53171695124560_1_alg».proof.Proof.GcnSpec
import proofs.«116328_j53171695124560_1_alg».proof.Proof.Region0
import proofs.«116328_j53171695124560_1_alg».proof.Proof.Region1
import proofs.«116328_j53171695124560_1_alg».proof.Proof.Region2
import proofs.«116328_j53171695124560_1_alg».proof.Proof.Region3
import proofs.«116328_j53171695124560_1_alg».proof.Proof.Region4

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- After region 0 the projected features are x · W₁ of the arrays the region found. -/
theorem after_region0 : W2 m ρ c (Proc.devRef .tc main_v27)
    = Cert.GcnSpec.proj256 (W1 m ρ c (Proc.devRef .tc main_arg0)) (W1 m ρ c (Proc.devRef .tc main_arg3)) :=
  (W2_arr m ρ c 2).trans (Cert.KernelIdeal.Region0.region0_value (V1 m ρ) c)

/-- After region 1 the first layer's output is the aggregate plus the self term plus the bias. -/
theorem after_region1 : W4 m ρ c (Proc.devRef .tc main_v42)
    = Cert.GcnSpec.combine (W3 m ρ c (Proc.devRef .tc main_v40)) (W3 m ρ c (Proc.devRef .tc main_v27))
        (W3 m ρ c (Proc.devRef .tc main_v26)) (W3 m ρ c (Proc.devRef .tc main_v41)) :=
  (W4_arr m ρ c 4).trans (Cert.KernelIdeal.Region1.region1_value (V3 m ρ) c)

/-- Region 1 reads the inverse square-root degree column through an input window and leaves it as it was. -/
theorem region1_keeps_degree : W4 m ρ c (Proc.devRef .tc main_v26) = W3 m ρ c (Proc.devRef .tc main_v26) :=
  (W4_arr m ρ c 2).trans (((dat1 (V3 m ρ) c).arrAt_in 2 rfl _).trans (A_eq1 (V3 m ρ) c 2))

/-- After region 2 the second projection is o₁ · W₂. -/
theorem after_region2 : W5 m ρ c (Proc.devRef .tc main_v43)
    = Cert.GcnSpec.proj128 (W4 m ρ c (Proc.devRef .tc main_v42)) (W4 m ρ c (Proc.devRef .tc main_arg5)) :=
  (W5_arr m ρ c 2).trans (Cert.KernelIdeal.Region2.region2_value (V4 m ρ) c)

/-- After region 3 the second layer's output. -/
theorem after_region3 : W7 m ρ c (Proc.devRef .tc main_v58)
    = Cert.GcnSpec.combine (W6 m ρ c (Proc.devRef .tc main_v56)) (W6 m ρ c (Proc.devRef .tc main_v43))
        (W6 m ρ c (Proc.devRef .tc main_v26)) (W6 m ρ c (Proc.devRef .tc main_v57)) :=
  (W7_arr m ρ c 4).trans (Cert.KernelIdeal.Region3.region3_value (V6 m ρ) c)

/-- After region 4 the result is the classifier of the second layer's output. -/
theorem after_region4 : W9 m ρ c (Proc.devRef .tc main_v60)
    = Cert.GcnSpec.readout (W8 m ρ c (Proc.devRef .tc main_v58)) (W8 m ρ c (Proc.devRef .tc main_arg7))
        (W8 m ρ c (Proc.devRef .tc main_v59)) :=
  (W9_arr m ρ c 3).trans (Cert.KernelIdeal.Region4.region4_value (V8 m ρ) c)

end Cert.KernelIdeal.Chain

end
-- ==== Proof.RefSide.lean ====
/-
  The reference's dense pieces are the specification's functions.

  The reference computes a node-feature projection as a `dot_general` contracting the left operand's axis 1 with the
  right operand's axis 0: at an index (r, c) it is the sum over k of l(r,k) · w(k,c).  It forms a layer's output from
  whole arrays: the inverse square-root degree vector d is squared entrywise, stood up as a 50000×1 column, copied along
  the 128 features, multiplied into the projected features and added to the aggregated messages; the bias vector is laid
  as a 1×128 row, copied down the 50000 rows and added.  The read-out adds a one-element bias, laid as a 1×1 array and
  copied down the rows, to the product with the one weight column.

  Each of these, read at an index (r, c), is the entry the specification's function has there; so the arrays are equal.
  A broadcast along an axis of extent one reads coordinate 0 of that axis; along any other axis it reads the result's
  coordinate.
-/
import proofs.«116328_j53171695124560_1_alg».proof.Proof.Gen.ReferenceIdeal.Read
import proofs.«116328_j53171695124560_1_alg».proof.Proof.GcnSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefSide

open Cert.ReferenceIdeal Cert.ReferenceIdeal.Gen Idealize.ShloMosaic Idealize.ShloMosaic.TcCoe Idealize.ShloMosaic.ValueIdx

/-! ## Broadcasts read at an index -/

section Broadcasts
variable {α : Type}

/-- A vector of 50000 entries stood up as a 50000×1 column: entry (r, 0) is entry r. -/
theorem column_of_vector_apply (y : S50000.Idx → α) (r : Fin 50000) (c : Fin 1) :
    broadcastInDim S50000x1 ![0] bcast_S50000_S50000x1_0 y (ix2 r c) = y (ix1 r) :=
  broadcastInDim_apply _ bcast_S50000_S50000x1_0 y (ix2 r c) (ix1 r) (fun a => match a with
    | ⟨0, _⟩ => by show r.val = if (50000 : Nat) = 1 then 0 else r.val; rw [if_neg (by decide)])

/-- A 50000×1 column copied along 128 features: entry (r, q) is the column's entry (r, 0). -/
theorem column_along_features_apply (y : S50000x1.Idx → α) (r : Fin 50000) (q : Fin 128) :
    broadcastInDim S50000x128 ![0, 1] bcast_S50000x1_S50000x128_0_1 y (ix2 r q) = y (ix2 r (0 : Fin 1)) :=
  broadcastInDim_apply _ bcast_S50000x1_S50000x128_0_1 y (ix2 r q) (ix2 r (0 : Fin 1)) (fun a => match a with
    | ⟨0, _⟩ => by show r.val = if (50000 : Nat) = 1 then 0 else r.val; rw [if_neg (by decide)]
    | ⟨1, _⟩ => by show 0 = if (1 : Nat) = 1 then 0 else q.val; rw [if_pos rfl])

/-- A vector of 128 entries laid as a 1×128 row: entry (0, q) is entry q. -/
theorem row_of_vector_apply (y : S128.Idx → α) (c : Fin 1) (q : Fin 128) :
    broadcastInDim S1x128 ![1] bcast_S128_S1x128_1 y (ix2 c q) = y (ix1 q) :=
  broadcastInDim_apply _ bcast_S128_S1x128_1 y (ix2 c q) (ix1 q) (fun a => match a with
    | ⟨0, _⟩ => by show q.val = if (128 : Nat) = 1 then 0 else q.val; rw [if_neg (by decide)])

/-- A 1×128 row copied down 50000 rows: entry (r, q) is the row's entry (0, q). -/
theorem row_down_rows_apply (y : S1x128.Idx → α) (r : Fin 50000) (q : Fin 128) :
    broadcastInDim S50000x128 ![0, 1] bcast_S1x128_S50000x128_0_1 y (ix2 r q) = y (ix2 (0 : Fin 1) q) :=
  broadcastInDim_apply _ bcast_S1x128_S50000x128_0_1 y (ix2 r q) (ix2 (0 : Fin 1) q) (fun a => match a with
    | ⟨0, _⟩ => by show 0 = if (1 : Nat) = 1 then 0 else r.val; rw [if_pos rfl]
    | ⟨1, _⟩ => by show q.val = if (128 : Nat) = 1 then 0 else q.val; rw [if_neg (by decide)])

/-- A one-element vector laid as a 1×1 array: its entry is the vector's entry. -/
theorem one_of_vector_apply (y : S1.Idx → α) (c c' : Fin 1) :
    broadcastInDim S1x1 ![1] bcast_S1_S1x1_1 y (ix2 c c') = y (ix1 (0 : Fin 1)) :=
  broadcastInDim_apply _ bcast_S1_S1x1_1 y (ix2 c c') (ix1 (0 : Fin 1)) (fun a => match a with
    | ⟨0, _⟩ => by show 0 = if (1 : Nat) = 1 then 0 else c'.val; rw [if_pos rfl])

/-- A 1×1 array copied down 50000 rows: every entry is its one entry. -/
theorem one_down_rows_apply (y : S1x1.Idx → α) (r : Fin 50000) (c : Fin 1) :
    broadcastInDim S50000x1 ![0, 1] bcast_S1x1_S50000x1_0_1 y (ix2 r c) = y (ix2 (0 : Fin 1) (0 : Fin 1)) :=
  broadcastInDim_apply _ bcast_S1x1_S50000x1_0_1 y (ix2 r c) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else c.val; rw [if_pos rfl])

end Broadcasts

/-! ## The three products read at an index -/

/-- Entry (r, c) of the 256-feature product: the sum over k of l(r,k) · w(k,c). -/
theorem dot256_apply (l : FVec Ideal S50000x256 .f32) (w : FVec Ideal S256x128 .f32) (r : Fin 50000) (c : Fin 128) :
    Host.dotGeneral (F := Ideal) dot_S50000x256_S256x128_S50000x128_1_0_0_1_n_n none l w (ix2 r c)
      = ∑ k : Fin 256, l (ix2 r k) * w (ix2 k c) := by
  show FloatOps.dotGeneral dot_S50000x256_S256x128_S50000x128_1_0_0_1_n_n none .single l w (ix2 r c) = _
  rw [Ideal.dotGeneral_apply, ← Equiv.sum_comp (contrEquiv1 dot_S50000x256_S256x128_S50000x128_1_0_0_1_n_n 256 rfl rfl).symm]
  refine Finset.sum_congr rfl fun k _ => ?_
  have hk := contrEquiv1_symm_val dot_S50000x256_S256x128_S50000x128_1_0_0_1_n_n 256 rfl rfl k
  have el : dot_S50000x256_S256x128_S50000x128_1_0_0_1_n_n.lhsIdx (ix2 r c)
      ((contrEquiv1 dot_S50000x256_S256x128_S50000x128_1_0_0_1_n_n 256 rfl rfl).symm k) = ix2 r k :=
    funext fun a => Fin.ext (by
      match a with
      | ⟨0, _⟩ => exact Read.lhs_main_v4_0 _ _
      | ⟨1, _⟩ => exact (Read.lhs_main_v4_1 _ _).trans hk)
  have er : dot_S50000x256_S256x128_S50000x128_1_0_0_1_n_n.rhsIdx (ix2 r c)
      ((contrEquiv1 dot_S50000x256_S256x128_S50000x128_1_0_0_1_n_n 256 rfl rfl).symm k) = ix2 k c :=
    funext fun a => Fin.ext (by
      match a with
      | ⟨0, _⟩ => exact (Read.rhs_main_v4_0 _ _).trans hk
      | ⟨1, _⟩ => exact Read.rhs_main_v4_1 _ _)
  rw [el, er]

/-- Entry (r, c) of the 128-feature product: the sum over k of l(r,k) · w(k,c). -/
theorem dot128_apply (l : FVec Ideal S50000x128 .f32) (w : FVec Ideal S128x128 .f32) (r : Fin 50000) (c : Fin 128) :
    Host.dotGeneral (F := Ideal) dot_S50000x128_S128x128_S50000x128_1_0_0_1_n_n none l w (ix2 r c)
      = ∑ k : Fin 128, l (ix2 r k) * w (ix2 k c) := by
  show FloatOps.dotGeneral dot_S50000x128_S128x128_S50000x128_1_0_0_1_n_n none .single l w (ix2 r c) = _
  rw [Ideal.dotGeneral_apply, ← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r c)
      ((contrEquiv1 dot_S50000x128_S128x128_S50000x128_1_0_0_1_n_n 128 rfl rfl).symm k) = ix2 r k :=
    funext fun a => Fin.ext (by
      match a with
      | ⟨0, _⟩ => exact Read.lhs_main_v48_0 _ _
      | ⟨1, _⟩ => exact (Read.lhs_main_v48_1 _ _).trans hk)
  have er : dot_S50000x128_S128x128_S50000x128_1_0_0_1_n_n.rhsIdx (ix2 r c)
      ((contrEquiv1 dot_S50000x128_S128x128_S50000x128_1_0_0_1_n_n 128 rfl rfl).symm k) = ix2 k c :=
    funext fun a => Fin.ext (by
      match a with
      | ⟨0, _⟩ => exact (Read.rhs_main_v48_0 _ _).trans hk
      | ⟨1, _⟩ => exact Read.rhs_main_v48_1 _ _)
  rw [el, er]

/-- Entry (r, c) of the product with the one weight column: the sum over k of l(r,k) · w(k,c). -/
theorem dot128x1_apply (l : FVec Ideal S50000x128 .f32) (w : FVec Ideal S128x1 .f32) (r : Fin 50000) (c : Fin 1) :
    Host.dotGeneral (F := Ideal) dot_S50000x128_S128x1_S50000x1_1_0_0_1_n_n none l w (ix2 r c)
      = ∑ k : Fin 128, l (ix2 r k) * w (ix2 k c) := by
  show FloatOps.dotGeneral dot_S50000x128_S128x1_S50000x1_1_0_0_1_n_n none .single l w (ix2 r c) = _
  rw [Ideal.dotGeneral_apply, ← Equiv.sum_comp (contrEquiv1 dot_S50000x128_S128x1_S50000x1_1_0_0_1_n_n 128 rfl rfl).symm]
  refine Finset.sum_congr rfl fun k _ => ?_
  have hk := contrEquiv1_symm_val dot_S50000x128_S128x1_S50000x1_1_0_0_1_n_n 128 rfl rfl k
  have el : dot_S50000x128_S128x1_S50000x1_1_0_0_1_n_n.lhsIdx (ix2 r c)
      ((contrEquiv1 dot_S50000x128_S128x1_S50000x1_1_0_0_1_n_n 128 rfl rfl).symm k) = ix2 r k :=
    funext fun a => Fin.ext (by
      match a with
      | ⟨0, _⟩ => exact Read.lhs_main_v92_0 _ _
      | ⟨1, _⟩ => exact (Read.lhs_main_v92_1 _ _).trans hk)
  have er : dot_S50000x128_S128x1_S50000x1_1_0_0_1_n_n.rhsIdx (ix2 r c)
      ((contrEquiv1 dot_S50000x128_S128x1_S50000x1_1_0_0_1_n_n 128 rfl rfl).symm k) = ix2 k c :=
    funext fun a => Fin.ext (by
      match a with
      | ⟨0, _⟩ => exact (Read.rhs_main_v92_0 _ _).trans hk
      | ⟨1, _⟩ => exact Read.rhs_main_v92_1 _ _)
  rw [el, er]

/-! ## The reference's operations are the specification's functions -/

/-- The reference's first projection (256 input features) is `proj256`. -/
theorem dot256_eq (l : FVec Ideal S50000x256 .f32) (r : FVec Ideal S256x128 .f32) :
    Host.dotGeneral (F := Ideal) dot_S50000x256_S256x128_S50000x128_1_0_0_1_n_n none l r = Cert.GcnSpec.proj256 l r := by
  funext i
  obtain ⟨a, c, rfl⟩ : ∃ (a : Fin 50000) (c : Fin 128), i = ix2 a c := ⟨i 0, i 1, eq_ix2 i⟩
  rw [dot256_apply, Cert.GcnSpec.proj256_apply]

/-- The reference's second projection (128 input features) is `proj128`. -/
theorem dot128_eq (l : FVec Ideal S50000x128 .f32) (r : FVec Ideal S128x128 .f32) :
    Host.dotGeneral (F := Ideal) dot_S50000x128_S128x128_S50000x128_1_0_0_1_n_n none l r = Cert.GcnSpec.proj128 l r := by
  funext i
  obtain ⟨a, c, rfl⟩ : ∃ (a : Fin 50000) (c : Fin 128), i = ix2 a c := ⟨i 0, i 1, eq_ix2 i⟩
  rw [dot128_apply, Cert.GcnSpec.proj128_apply]

/-- The reference's layer output — aggregated messages, plus the projected features times the squared inverse
    square-root degree broadcast along the features, plus the bias broadcast down the rows — is `combine` at any column
    `d2` and row `b2` holding the degree vector and the bias vector. -/
theorem combine_eq (agg h : FVec Ideal S50000x128 .f32) (d : FVec Ideal S50000 .f32) (b : FVec Ideal S128 .f32)
    (d2 : FVec Ideal S50000x1 .f32) (b2 : FVec Ideal S1x128 .f32)
    (hd : ∀ r : Fin 50000, d2 (ix2 r (0 : Fin 1)) = d (ix1 r)) (hb : ∀ q : Fin 128, b2 (ix2 (0 : Fin 1) q) = b (ix1 q)) :
    addf (addf agg (mulf h (broadcastInDim S50000x128 ![0, 1] bcast_S50000x1_S50000x128_0_1 (broadcastInDim S50000x1 ![0] bcast_S50000_S50000x1_0 (mulf d d)))))
      (broadcastInDim S50000x128 ![0, 1] bcast_S1x128_S50000x128_0_1 (broadcastInDim S1x128 ![1] bcast_S128_S1x128_1 b))
    = Cert.GcnSpec.combine agg h d2 b2 := by
  funext i
  obtain ⟨r, q, rfl⟩ : ∃ (r : Fin 50000) (q : Fin 128), i = ix2 r q := ⟨i 0, i 1, eq_ix2 i⟩
  rw [Cert.GcnSpec.combine_apply, hd, hb, addf_apply, addf_apply, mulf_apply, column_along_features_apply,
    column_of_vector_apply, mulf_apply, row_down_rows_apply, row_of_vector_apply]

/-- The reference's read-out — the product with the one weight column plus the one-element bias broadcast down the
    rows — is `readout` at any 1×1 array `b2` holding the bias. -/
theorem readout_eq (h : FVec Ideal S50000x128 .f32) (w : FVec Ideal S128x1 .f32) (b : FVec Ideal S1 .f32) (b2 : FVec Ideal S1x1 .f32)
    (hb : b2 (ix2 (0 : Fin 1) (0 : Fin 1)) = b (ix1 (0 : Fin 1))) :
    addf (Host.dotGeneral (F := Ideal) dot_S50000x128_S128x1_S50000x1_1_0_0_1_n_n none h w)
      (broadcastInDim S50000x1 ![0, 1] bcast_S1x1_S50000x1_0_1 (broadcastInDim S1x1 ![1] bcast_S1_S1x1_1 b))
    = Cert.GcnSpec.readout h w b2 := by
  funext i
  obtain ⟨r, c, rfl⟩ : ∃ (r : Fin 50000) (c : Fin 1), i = ix2 r c := ⟨i 0, i 1, eq_ix2 i⟩
  rw [Cert.GcnSpec.readout_apply, hb, addf_apply, dot128x1_apply, one_down_rows_apply, one_of_vector_apply]

/-! ## The same, at the reshaped degree and bias arrays

A vector reshaped to a column or to a row keeps its entries in row-major order: the column's entry (r, 0) sits at position
r · 1 + 0 = r, the row's entry (0, q) at position 0 · n + q = q. So the reshaped arrays hold the vectors, whichever proof of
the reshape's side condition they are given. -/

/-- A vector of `a` entries reshaped to an a×1 column: entry (i, 0) is entry i (row-major position i · 1 + 0 = i). -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- `combine_eq` at the degree vector reshaped to a column and the bias vector reshaped to a row. -/
theorem combine_eq' (agg h : FVec Ideal S50000x128 .f32) (d : FVec Ideal S50000 .f32) (b : FVec Ideal S128 .f32)
    (pd : S50000.ShapeCasts S50000x1) (pb : S128.ShapeCasts S1x128) :
    addf (addf agg (mulf h (broadcastInDim S50000x128 ![0, 1] bcast_S50000x1_S50000x128_0_1 (broadcastInDim S50000x1 ![0] bcast_S50000_S50000x1_0 (mulf d d)))))
      (broadcastInDim S50000x128 ![0, 1] bcast_S1x128_S50000x128_0_1 (broadcastInDim S1x128 ![1] bcast_S128_S1x128_1 b))
    = Cert.GcnSpec.combine agg h (shapeCast S50000x1 d pd) (shapeCast S1x128 b pb) :=
  combine_eq agg h d b (shapeCast S50000x1 d pd) (shapeCast S1x128 b pb)
    (fun r => shapeCast_a_a1_apply d pd r (0 : Fin 1))
    (fun q => shapeCast_a_1a_apply b pb (0 : Fin 1) q)

/-- `readout_eq` at the one-element bias reshaped to a 1×1 array. -/
theorem readout_eq' (h : FVec Ideal S50000x128 .f32) (w : FVec Ideal S128x1 .f32) (b : FVec Ideal S1 .f32) (pb : S1.ShapeCasts S1x1) :
    addf (Host.dotGeneral (F := Ideal) dot_S50000x128_S128x1_S50000x1_1_0_0_1_n_n none h w)
      (broadcastInDim S50000x1 ![0, 1] bcast_S1x1_S50000x1_0_1 (broadcastInDim S1x1 ![1] bcast_S1_S1x1_1 b))
    = Cert.GcnSpec.readout h w (shapeCast S1x1 b pb) :=
  readout_eq h w b (shapeCast S1x1 b pb) (shapeCast_a_1a_apply b pb (0 : Fin 1) (0 : Fin 1))

end Cert.ReferenceIdeal.RefSide

end
-- ==== Proof.Bridge.lean ====
/-
  The two idealized programs compute one function of the argument arrays.

  The kernel program's result array is read boundary by boundary back to its arguments: the classifier of the second
  layer's output, which combines the messages aggregated from h₂ = o₁ · W₂ with h₂ itself, where o₁ combines the messages
  aggregated from h₁ = x · W₁ with h₁; the degree normalisation, the gathers along edges and the scatter-adds by target
  node in between are the host operations applied as printed.  The reference's result is the same tree of operations,
  its three matrix products, its two layer outputs and its read-out written with whole-array host operations; each of
  those is the specification's function (the reference-side lemmas), and everything else is literally the same
  operation applied to the same operands, so the two terms coincide.  The reference recomputes the degree
  normalisation once per layer; the recomputed term is the same term.
-/
import proofs.«116328_j53171695124560_1_alg».proof.Proof.KernelRun
import proofs.«116328_j53171695124560_1_alg».proof.Proof.Chain
import proofs.«116328_j53171695124560_1_alg».proof.Proof.RefSide
import proofs.«116328_j53171695124560_1_alg».proof.Proof.Gen.ReferenceIdeal.Run
import Idealize.ShloMosaic.Lib.StableHlo.Run

set_option maxRecDepth 16384

noncomputable section

namespace Cert.Bridge

open Idealize.ShloMosaic Idealize.ShloMosaic.TcCoe Idealize.SL.Sem Idealize.ShloMosaic.StableHlo

section
open Cert.KernelIdeal Cert.KernelIdeal.Gen

variable (m : (ℓ : Loc nD τ sig) → Buf (Elt Ideal) ℓ) (ρ : Dev nD → PrngReg) (c : Dev nD)

set_option maxHeartbeats 8000000 in
/-- The kernel program's result array equals the reference's composed term of the same argument arrays. -/
theorem result_eq (m' : (ℓ : Loc Cert.ReferenceIdeal.nD Cert.ReferenceIdeal.τ Cert.ReferenceIdeal.sig) → Buf (Elt Ideal) ℓ)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8)) :
    Cert.ReferenceIdeal.Value.res_main_v95 (F := Ideal) m' c = W9 m ρ c (Proc.devRef .tc main_v60) := by
  -- the kernel side, boundary by boundary
  rw [Chain.after_region4 m ρ c]
  dsimp only [W8]
  simp only [hostOps4]
  after_results_simp
  simp only [Chain.after_region3 m ρ c, W7_of_ne m ρ c main_arg7 (by decide), W7_of_ne m ρ c main_arg8 (by decide)]
  dsimp only [W6]
  simp only [hostOps3]
  after_results_simp
  simp only [Chain.after_region2 m ρ c, W5_of_ne m ρ c main_v1 (by decide), W5_of_ne m ρ c main_v3 (by decide), W5_of_ne m ρ c main_v25 (by decide), W5_of_ne m ρ c main_v26 (by decide), W5_of_ne m ρ c main_arg6 (by decide), W5_of_ne m ρ c main_arg7 (by decide), W5_of_ne m ρ c main_arg8 (by decide)]
  simp only [Chain.after_region1 m ρ c, Chain.region1_keeps_degree m ρ c, W4_of_ne m ρ c main_v1 (by decide), W4_of_ne m ρ c main_v3 (by decide), W4_of_ne m ρ c main_v25 (by decide), W4_of_ne m ρ c main_arg5 (by decide), W4_of_ne m ρ c main_arg6 (by decide), W4_of_ne m ρ c main_arg7 (by decide), W4_of_ne m ρ c main_arg8 (by decide)]
  dsimp only [W3]
  simp only [hostOps1]
  after_results_simp
  simp only [Chain.after_region0 m ρ c, W2_of_ne m ρ c main_v1 (by decide), W2_of_ne m ρ c main_v3 (by decide), W2_of_ne m ρ c main_v25 (by decide), W2_of_ne m ρ c main_v26 (by decide), W2_of_ne m ρ c main_arg4 (by decide), W2_of_ne m ρ c main_arg5 (by decide), W2_of_ne m ρ c main_arg6 (by decide), W2_of_ne m ρ c main_arg7 (by decide), W2_of_ne m ρ c main_arg8 (by decide)]
  dsimp only [W1]
  simp only [hostOps0]
  after_results_simp
  -- the reference side
  unfold Cert.ReferenceIdeal.Value.res_main_v95
  rw [h0, h1, h2, h3, h4, h5, h6, h7, h8]
  simp only [Cert.ReferenceIdeal.RefSide.dot256_eq, Cert.ReferenceIdeal.RefSide.dot128_eq,
    Cert.ReferenceIdeal.RefSide.combine_eq' _ _ _ _ shapeCasts_S50000_S50000x1 shapeCasts_S128_S1x128,
    Cert.ReferenceIdeal.RefSide.readout_eq' _ _ _ shapeCasts_S1_S1x1]
  rfl

end

end Cert.Bridge

end
-- ==== Proof.lean ====
/-
  The certificate: the word-level kernel program and its idealization run to the end leaving their arguments as they
  were (the frames of the two five-region programs), the reference runs and leaves its arguments (its run, the result
  dropped), the idealization rewrote nothing (so there is nothing to preserve), and over the extended reals the
  idealized kernel program and the idealized reference — a two-layer graph convolution with a linear read-out — end
  with the same result array when started from the same arguments.

  For the last claim the common value is the kernel program's buffer contents at its last boundary.  The kernel's run
  ends with its result there; the reference's run ends with its composed term of the arguments, which is that same
  value: region by region the kernel's arrays are the dense projections, the layer combinations and the read-out of the
  specification, the reference's whole-array operations are the same functions, and the sparse part — degrees,
  gathers along edges, scatter-adds by target node — is the same host operations on both sides.  No law of arithmetic
  beyond reading each operation at an index is used, so the finiteness of the inputs is never opened.
-/
import proofs.«116328_j53171695124560_1_alg».proof.Defs
import proofs.«116328_j53171695124560_1_alg».proof.Proof.Gen.Kernel
import proofs.«116328_j53171695124560_1_alg».proof.Proof.Gen.Kernel.Skeleton
import proofs.«116328_j53171695124560_1_alg».proof.Proof.Gen.Kernel.Launch
import proofs.«116328_j53171695124560_1_alg».proof.Proof.Gen.Kernel.Points
import proofs.«116328_j53171695124560_1_alg».proof.Proof.Gen.Kernel.Frame
import proofs.«116328_j53171695124560_1_alg».proof.Proof.Gen.KernelIdeal
import proofs.«116328_j53171695124560_1_alg».proof.Proof.Gen.KernelIdeal.Skeleton
import proofs.«116328_j53171695124560_1_alg».proof.Proof.Gen.KernelIdeal.Launch
import proofs.«116328_j53171695124560_1_alg».proof.Proof.Gen.KernelIdeal.Points
import proofs.«116328_j53171695124560_1_alg».proof.Proof.Gen.KernelIdeal.Frame
import proofs.«116328_j53171695124560_1_alg».proof.Proof.Gen.ReferenceIdeal
import proofs.«116328_j53171695124560_1_alg».proof.Proof.Gen.Pre_finite_inputs
import proofs.«116328_j53171695124560_1_alg».proof.Proof.Gen.ReferenceIdeal.Run
import proofs.«116328_j53171695124560_1_alg».proof.Proof.Gen.ReferenceIdeal.Read
import proofs.«116328_j53171695124560_1_alg».proof.Proof.KernelRun
import proofs.«116328_j53171695124560_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments. -/
theorem frame_kernel : Cert.frame_Kernel := fun m ρ _ => Cert.Kernel.Gen.frame m ρ

/-- The idealized kernel program runs and leaves its arguments. -/
theorem frame_kernelIdeal : Cert.frame_KernelIdeal := fun m ρ _ => Cert.KernelIdeal.Gen.frame m ρ

/-- The idealized reference runs and leaves its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both idealized programs end with the kernel program's last-boundary contents as the
    result: the kernel by its run, the reference because its composed term is that value. -/
theorem algebraic : Cert.algebraic_KernelIdeal_ReferenceIdeal := by
  intro m ρ m' ρ' _ hagree
  refine ⟨fun c => Cert.KernelIdeal.Gen.W9 m ρ c (Proc.devRef .tc Cert.KernelIdeal.main_v60),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  exact Cert.Bridge.result_eq m ρ c m' h0 h1 h2 h3 h4 h5 h6 h7 h8

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
